-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S256x512 : Shape := ⟨2, ![256, 512]⟩
abbrev S2x256 : Shape := ⟨2, ![2, 256]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S2x256 : S_.BroadcastsInDim S2x256 (![] : Fin 0 → Fin S2x256.rank)
  reducesTo_S2x256_S_d0_1 : S2x256.ReducesTo [0, 1] S_

variable [Facts]

def fn {F : FTy → Type} [FloatOps F] (main_arg0 : FVec F S100000x512 .f32) (main_arg1 : FVec F S256x512 .f32) (main_arg2 : FVec F S2x256 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S2x256 .f32 := Host.absf main_arg2
  let main_cst_2 : FVec F S_ .f32 := constant S_ .f32 0x7F800000#32
  let main_v10 : FVec F S2x256 .f32 := broadcastInDim S2x256 ![] bcast_S_S2x256 main_cst_2
  let main_v11 : IVec S2x256 1 := cmpf .olt main_v9 main_v10
  let main_c_3 : IVec S_ 1 := constantI S_ 1 1#1
  let main_v12 : IVec S_ 1 := (fun x v => Host.reduce IntOp.andi x v reducesTo_S2x256_S_d0_1 h_S_) main_v11 main_c_3
  let main_v13 : IVec S_ 1 := andi main_v8 main_v12
  main_v13
-- ==== Kernel.lean ====
abbrev S100000x512 : Shape := ⟨2, ![100000, 512]⟩
abbrev S256x512 : Shape := ⟨2, ![256, 512]⟩
abbrev S2x256 : Shape := ⟨2, ![2, 256]⟩
abbrev S100000x2 : Shape := ⟨2, ![100000, 2]⟩
abbrev S2000x512 : Shape := ⟨2, ![2000, 512]⟩
abbrev S2000x2 : Shape := ⟨2, ![2000, 2]⟩
abbrev S2000x256 : Shape := ⟨2, ![2000, 256]⟩
abbrev S1x256 : Shape := ⟨2, ![1, 256]⟩
abbrev S2000 : Shape := ⟨1, ![2000]⟩
abbrev S2000x1 : Shape := ⟨2, ![2000, 1]⟩

abbrev nBuf : Space → Nat
  | .hbm => 5
  | .vmem => 6
  | .smem => 0
  | _ => 0

abbrev bufTy : (tb : Table) → Fin (tcTables nBuf tb) → BufTy
  | .hbm, ⟨0, _⟩ => ⟨S100000x512, .f32⟩
  | .hbm, ⟨1, _⟩ => ⟨S256x512, .f32⟩
  | .hbm, ⟨2, _⟩ => ⟨S2x256, .f32⟩
  | .hbm, ⟨3, _⟩ => ⟨S256x512, .bf16⟩
  | .hbm, ⟨4, _⟩ => ⟨S100000x2, .f32⟩
  | .local _ .vmem, ⟨0, _⟩ => ⟨S2000x512, .f32⟩
  | .local _ .vmem, ⟨1, _⟩ => ⟨S2000x512, .f32⟩
  | .local _ .vmem, ⟨2, _⟩ => ⟨S256x512, .bf16⟩
  | .local _ .vmem, ⟨3, _⟩ => ⟨S2x256, .f32⟩
  | .local _ .vmem, ⟨4, _⟩ => ⟨S2000x2, .f32⟩
  | .local _ .vmem, ⟨5, _⟩ => ⟨S2000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2x256_S2x256_0_0 : ∀ a, (![0, 0] : Fin 2 → Nat) a + S2x256.size a ≤ S2x256.size a
  h_S2x256 : 0 < S2x256.numel
  slices_S2x256_o0_0_S1x256 : S2x256.Slices ![0, 0] S1x256
  broadcasts_S1x256_S2000x256 : S1x256.Broadcasts S2000x256
  reduces_S2000x256_S2000 : S2000x256.Reduces [1] S2000
  shapeCasts_S2000_S2000x1 : S2000.ShapeCasts S2000x1
  inb_S2000x2_S2000x1_0_0 : ∀ a, (![0, 0] : Fin 2 → Nat) a + S2000x1.size a ≤ S2000x2.size a
  h_S2000x1 : 0 < S2000x1.numel
  slices_S2x256_o1_0_S1x256 : S2x256.Slices ![1, 0] S1x256
  inb_S2000x2_S2000x1_0_1 : ∀ a, (![0, 1] : Fin 2 → Nat) a + S2000x1.size a ≤ S2000x2.size a
  dot_S2000x512_S256x512_S2000x256_1_1_0_0_n_n_wf : DotDims.WF S2000x512 S256x512 S2000x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x256.size a ≤ S2x256.size a
  hwx0_2 : ∀ i : grid0.Coords, EltTy.bits .f32 = 32 ∨ (Rect.block (s := S2x256) S2x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x2.size a ≤ S100000x2.size a
  hwx0_3 : ∀ i : grid0.Coords, EltTy.bits .f32 = 32 ∨ (Rect.block (s := S100000x2) S2000x2.size (cc0_transform_3 i) (hinb0_3 i)).WholeWords (EltTy.packing .f32)

variable [Facts₀]

def dot_S2000x512_S256x512_S2000x256_1_1_0_0_n_n : DotDims S2000x512 S256x512 S2000x256 where
  lhsContracting := [1]
  rhsContracting := [1]
  lhsNonContracting := [0]
  rhsNonContracting := [0]
  lhsBatch := []
  rhsBatch := []
  wf := dot_S2000x512_S256x512_S2000x256_1_1_0_0_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x512 : Shape := ⟨2, ![100000, 512]⟩
abbrev S256x512 : Shape := ⟨2, ![256, 512]⟩
abbrev S2x256 : Shape := ⟨2, ![2, 256]⟩
abbrev S512x256 : Shape := ⟨2, ![512, 256]⟩
abbrev S100000x256 : Shape := ⟨2, ![100000, 256]⟩
abbrev S_ : Shape := ⟨0, ![]⟩
abbrev S256x2 : Shape := ⟨2, ![256, 2]⟩
abbrev S100000x2 : Shape := ⟨2, ![100000, 2]⟩

abbrev nBuf : Space → Nat
  | .hbm => 14
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S256x512, .f32⟩
  | .hbm, ⟨2, _⟩ => ⟨S2x256, .f32⟩
  | .hbm, ⟨3, _⟩ => ⟨S512x256, .f32⟩
  | .hbm, ⟨4, _⟩ => ⟨S100000x256, .f32⟩
  | .hbm, ⟨5, _⟩ => ⟨S_, .f32⟩
  | .hbm, ⟨6, _⟩ => ⟨S100000x256, .f32⟩
  | .hbm, ⟨7, _⟩ => ⟨S100000x256, .i1⟩
  | .hbm, ⟨8, _⟩ => ⟨S_, .f32⟩
  | .hbm, ⟨9, _⟩ => ⟨S100000x256, .f32⟩
  | .hbm, ⟨10, _⟩ => ⟨S100000x256, .f32⟩
  | .hbm, ⟨11, _⟩ => ⟨S100000x256, .f32⟩
  | .hbm, ⟨12, _⟩ => ⟨S256x2, .f32⟩
  | .hbm, ⟨13, _⟩ => ⟨S100000x2, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  transposes_S256x512_S512x256_1_0 : S256x512.Transposes [1, 0] S512x256
  bcast_S_S100000x256 : S_.BroadcastsInDim S100000x256 (![] : Fin 0 → Fin S100000x256.rank)
  transposes_S2x256_S256x2_1_0 : S2x256.Transposes [1, 0] S256x2
  dot_S100000x512_S512x256_S100000x256_1_0_0_1_n_n_wf : DotDims.WF S100000x512 S512x256 S100000x256 [1] [0] [0] [1] [] []
  dot_S100000x256_S256x2_S100000x2_1_0_0_1_n_n_wf : DotDims.WF S100000x256 S256x2 S100000x2 [1] [0] [0] [1] [] []

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x2_S100000x2_1_0_0_1_n_n : DotDims S100000x256 S256x2 S100000x2 where
  lhsContracting := [1]
  rhsContracting := [0]
  lhsNonContracting := [0]
  rhsNonContracting := [1]
  lhsBatch := []
  rhsBatch := []
  wf := dot_S100000x256_S256x2_S100000x2_1_0_0_1_n_n_wf

class Facts : Prop extends Facts₀ where

variable [Facts]
-- ==== Proof.LeakySpec.lean ====
/-
  The function both programs compute, and the one law that joins them.

  Per output entry (row `r` of the activations, class `c`):
      out[r, c] = ∑ k, act (∑ j, x[r, j] · W1[k, j]) · W2[c, k]
  where `act h` is the leaky rectifier. One side spells it `max h (s · h)`, the other
  `if 0 ≤ h then h else s · h`, with the same slope `s`; for a real slope `0 ≤ s ≤ 1` the two agree
  at every extended real: where `0 ≤ h` the scaled value `s · h` is at most `h` (also at `+∞`, where
  both are `+∞` or the scaled one is `0`), and below zero it is at least `h` (also at `-∞`).
  No finiteness of the inputs is used: sums and products are only ever regrouped by their indices.
-/
import Idealize.ShloMosaic.PureOps.Ideal
import Idealize.ShloMosaic.PureOps.Ideal.Laws
import Idealize.ShloMosaic.Lib.ValueIdx

noncomputable section

namespace Cert.LeakyMlp

open Idealize.ShloMosaic Idealize.ShloMosaic.ValueIdx

/-- The rectifier's slope below zero: the extended real the f32 word `0x3C23D70A` denotes. -/
abbrev slope : EReal := Ideal.ofBits .f32 0x3C23D70A#32

/-- That word is the dyadic rational `10737418 / 2^30` (about 0.01). -/
theorem slope_eq : slope = ((10737418 / 1073741824 : ℝ) : EReal) := by
  simp [slope, Ideal.ofBits, Ideal.ieee, -EReal.coe_mul]; norm_num

/-- A comparison `z ≤ h` choosing between two values is the corresponding `if`. -/
theorem select_cmp_oge (h z a b : EReal) :
    Scalar.select (Ideal.cmp .oge h z) a b = if z ≤ h then a else b := by
  unfold Scalar.select Ideal.cmp
  by_cases hz : z ≤ h <;> simp [hz]

/-- For a real factor `0 ≤ s ≤ 1` the larger of `h` and `s · h` is `h` where `0 ≤ h` and `s · h` below zero,
    on the whole extended line. -/
theorem max_scaled (s : ℝ) (hs0 : 0 ≤ s) (hs1 : s ≤ 1) (h : EReal) :
    max h ((s : EReal) * h) = if 0 ≤ h then h else (s : EReal) * h := by
  induction h using EReal.rec with
  | bot => rw [if_neg (by simp), max_eq_right bot_le]
  | top => rw [if_pos le_top, max_eq_left le_top]
  | coe x =>
    rw [← EReal.coe_mul]
    by_cases hx : 0 ≤ x
    · rw [if_pos (by exact_mod_cast hx), max_eq_left (by exact_mod_cast (by nlinarith : s * x ≤ x))]
    · rw [if_neg (by exact_mod_cast hx),
        max_eq_right (by exact_mod_cast (by nlinarith [not_le.mp hx] : x ≤ s * x))]

/-- The rectifier, in the `max` spelling. -/
def act (h : EReal) : EReal := max h (slope * h)

/-- The rectifier in the comparison spelling is the same function. -/
theorem select_eq_act (h : EReal) :
    Scalar.select (Ideal.cmp .oge h 0) h (slope * h) = act h := by
  rw [select_cmp_oge, act, slope_eq]
  exact (max_scaled _ (by norm_num) (by norm_num) h).symm

/-- One output entry from one row of the activations (`xrow`), the first layer's weights and one row of the
    second layer's (`w2row`). -/
def entry (xrow : Fin 512 → EReal) (w1 : (⟨2, ![256, 512]⟩ : Shape).Idx → EReal) (w2row : Fin 256 → EReal) : EReal :=
  ∑ k : Fin 256, act (∑ j : Fin 512, xrow j * w1 (ix2 k j)) * w2row k

/-- The whole result: entry `(r, c)` from row `r` of `x` and row `c` of `w2`. -/
def logits (x : (⟨2, ![100000, 512]⟩ : Shape).Idx → EReal) (w1 : (⟨2, ![256, 512]⟩ : Shape).Idx → EReal)
    (w2 : (⟨2, ![2, 256]⟩ : Shape).Idx → EReal) : (⟨2, ![100000, 2]⟩ : Shape).Idx → EReal :=
  fun i => entry (fun j => x (ix2 (i 0) j)) w1 (fun k => w2 (ix2 (i 1) k))

end Cert.LeakyMlp

end
-- ==== Proof.RefIsSpec.lean ====
/-
  The reference's result is the specification `logits`.

  Read stage by stage, entry `(r, c)` of the reference's last product is
      ∑ k, (if 0 ≤ h r k then h r k else s · h r k) · W2ᵀ[k, c],   h r k = ∑ j, x[r, j] · W1ᵀ[j, k],
  and the two transposes only swap the coordinates at which `W1` and `W2` are read. The comparison spelling of
  the rectifier is the `max` spelling (`select_eq_act`).
-/
import proofs.«115512_g39908836114553_cont_8to1_b_374_6_alg».proof.Proof.Gen.ReferenceIdeal.Read
import proofs.«115512_g39908836114553_cont_8to1_b_374_6_alg».proof.Proof.LeakySpec

noncomputable section

namespace Cert.LeakyMlp.Ref

open Idealize.ShloMosaic Idealize.ShloMosaic.ValueIdx Cert.ReferenceIdeal Cert.ReferenceIdeal.Read Cert.LeakyMlp

/-- The reference's final stage, index by index, is the specification. -/
theorem stage_eq_logits (x0 : (⟨S100000x512, .f32⟩ : BufTy).Contents (Elt Ideal)) (x1 : (⟨S256x512, .f32⟩ : BufTy).Contents (Elt Ideal))
    (x2 : (⟨S2x256, .f32⟩ : BufTy).Contents (Elt Ideal)) :
    val_main_v8 (F := Ideal) x0 x1 x2 = logits x0 x1 x2 := by
  funext i
  rw [val_main_v8_apply]
  unfold logits entry
  refine Finset.sum_congr rfl fun k _ => ?_
  rw [val_main_v7_apply, val_main_v6_apply, val_main_v3_apply, val_main_v5_apply, val_main_v4_apply, val_main_cst_0_apply,
    val_main_v2_apply, val_main_cst_apply, val_main_v1_apply]
  have e7 : idx_main_v7 (ridx_main_v8 i k) = ix2 (i 1) k :=
    funext fun a => Fin.ext (by match a with | ⟨0, _⟩ => rfl | ⟨1, _⟩ => rfl)
  have eh : (∑ j : Fin 512, x0 (lidx_main_v1 (lidx_main_v8 i k) j) * (val_main_v0 (F := Ideal) x1) (ridx_main_v1 (lidx_main_v8 i k) j))
      = ∑ j : Fin 512, x0 (ix2 (i 0) j) * x1 (ix2 k j) := by
    refine Finset.sum_congr rfl fun j _ => ?_
    rw [val_main_v0_apply]
    have el : lidx_main_v1 (lidx_main_v8 i k) j = ix2 (i 0) j :=
      funext fun a => Fin.ext (by match a with | ⟨0, _⟩ => rfl | ⟨1, _⟩ => rfl)
    have er : idx_main_v0 (ridx_main_v1 (lidx_main_v8 i k) j) = ix2 k j :=
      funext fun a => Fin.ext (by match a with | ⟨0, _⟩ => rfl | ⟨1, _⟩ => rfl)
    rw [el, er]
    rfl
  rw [eh, e7]
  show Scalar.select (Ideal.cmp .oge _ (Ideal.ofBits .f32 0x00000000#32)) _ (slope * _) * _ = _
  rw [Ideal.ofBits_zero_f32, select_eq_act]
  rfl

end Cert.LeakyMlp.Ref

end
-- ==== Proof.KernelBlock.lean ====
/-
  One block of the kernel's output, entry by entry, is the specification's `entry`.

  At a grid point the body sees a block `P0` of 2000 rows of the activations, all of the first layer's
  weights `P1` and all of the second layer's `P2`. Entry `(r, c)` of the block it leaves is the sum over the
  hidden index `k` of the rectified hidden value `max (h r k) (s · h r k)`, `h r k = ∑ j, P0[r, j] · P1[k, j]`
  (a matrix product into a zero accumulator, both operands contracted on their second axis), times `P2[c, k]`
  (row `c` of `P2` sliced out and repeated down the rows): exactly `entry` of row `r` of `P0` and row `c` of `P2`.
-/
import proofs.«115512_g39908836114553_cont_8to1_b_374_6_alg».proof.Proof.Gen.KernelIdeal.Value
import proofs.«115512_g39908836114553_cont_8to1_b_374_6_alg».proof.Proof.LeakySpec
import Idealize.ShloMosaic.Lib.ValueIdx
import Idealize.ShloMosaic.Lib.Pipeline.Value
import Idealize.ShloMosaic.PureOps.Ideal.Laws

noncomputable section

namespace Cert.LeakyMlp.Kernel

open Idealize.ShloMosaic Idealize.ShloMosaic.ValueIdx Cert.KernelIdeal Cert.KernelIdeal.Gen Cert.LeakyMlp

/-! ## The first product read at an index -/

theorem lhs_row (i : S2000x256.Idx) (q : dot_S2000x512_S256x512_S2000x256_1_1_0_0_n_n.contr.Idx) :
    (dot_S2000x512_S256x512_S2000x256_1_1_0_0_n_n.lhsIdx i q 0).val = (i 0).val := by
  unfold DotDims.lhsIdx
  rw [dif_neg (show ¬(0 : Fin S2000x512.rank) ∈ dot_S2000x512_S256x512_S2000x256_1_1_0_0_n_n.lhsBatch by decide),
    dif_pos (show (0 : Fin S2000x512.rank) ∈ dot_S2000x512_S256x512_S2000x256_1_1_0_0_n_n.lhsNonContracting by decide)]
  rfl
theorem lhs_contr (i : S2000x256.Idx) (q : dot_S2000x512_S256x512_S2000x256_1_1_0_0_n_n.contr.Idx) :
    (dot_S2000x512_S256x512_S2000x256_1_1_0_0_n_n.lhsIdx i q 1).val = (q ⟨0, by decide⟩).val :=
  dot_S2000x512_S256x512_S2000x256_1_1_0_0_n_n.lhsIdx_val_of_single rfl i q
theorem rhs_row (i : S2000x256.Idx) (q : dot_S2000x512_S256x512_S2000x256_1_1_0_0_n_n.contr.Idx) :
    (dot_S2000x512_S256x512_S2000x256_1_1_0_0_n_n.rhsIdx i q 0).val = (i 1).val := by
  unfold DotDims.rhsIdx
  rw [dif_neg (show ¬(0 : Fin S256x512.rank) ∈ dot_S2000x512_S256x512_S2000x256_1_1_0_0_n_n.rhsBatch by decide),
    dif_pos (show (0 : Fin S256x512.rank) ∈ dot_S2000x512_S256x512_S2000x256_1_1_0_0_n_n.rhsNonContracting by decide)]
  rfl
theorem rhs_contr (i : S2000x256.Idx) (q : dot_S2000x512_S256x512_S2000x256_1_1_0_0_n_n.contr.Idx) :
    (dot_S2000x512_S256x512_S2000x256_1_1_0_0_n_n.rhsIdx i q 1).val = (q ⟨0, by decide⟩).val :=
  dot_S2000x512_S256x512_S2000x256_1_1_0_0_n_n.rhsIdx_val_of_single rfl i q

/-- The hidden value at `(r, k)`: the product into a zero accumulator is the plain sum over the shared axis;
    the change of float format of the left operand and the trivial reshape of the right one change nothing. -/
theorem hidden_apply (P0 : FVec Ideal S2000x512 .f32) (P1 : FVec Ideal S256x512 .bf16) (r : Fin 2000) (k : Fin 256) :
    (matmul dot_S2000x512_S256x512_S2000x256_1_1_0_0_n_n none (truncf .bf16 P0 Facts₀.bitsLt_bf16_f32)
        (shapeCast S256x512 P1 Facts₀.shapeCasts_S256x512_S256x512) (constant S2000x256 .f32 0x00000000#32) : FVec Ideal S2000x256 .f32) (ix2 r k)
      = ∑ j : Fin 512, P0 (ix2 r j) * P1 (ix2 k j) := by
  rw [shapeCast_self]
  simp only [matmul]
  rw [Ideal.matmul_constant_zero_apply, ← Equiv.sum_comp (contrEquiv1 dot_S2000x512_S256x512_S2000x256_1_1_0_0_n_n 512 rfl rfl).symm]
  refine Finset.sum_congr rfl fun j _ => ?_
  have hk := contrEquiv1_symm_val dot_S2000x512_S256x512_S2000x256_1_1_0_0_n_n 512 rfl rfl j
  have el : dot_S2000x512_S256x512_S2000x256_1_1_0_0_n_n.lhsIdx (ix2 r k) ((contrEquiv1 dot_S2000x512_S256x512_S2000x256_1_1_0_0_n_n 512 rfl rfl).symm j) = ix2 r j :=
    funext fun a => Fin.ext (by
      match a with
      | ⟨0, _⟩ => exact lhs_row _ _
      | ⟨1, _⟩ => exact (lhs_contr _ _).trans hk)
  have er : dot_S2000x512_S256x512_S2000x256_1_1_0_0_n_n.rhsIdx (ix2 r k) ((contrEquiv1 dot_S2000x512_S256x512_S2000x256_1_1_0_0_n_n 512 rfl rfl).symm j) = ix2 k j :=
    funext fun a => Fin.ext (by
      match a with
      | ⟨0, _⟩ => exact rhs_row _ _
      | ⟨1, _⟩ => exact (rhs_contr _ _).trans hk)
  rw [el, er]
  rfl

/-- The rectified hidden value at `(r, k)`. -/
theorem rectified_apply (P0 : FVec Ideal S2000x512 .f32) (P1 : FVec Ideal S256x512 .bf16) (r : Fin 2000) (k : Fin 256) :
    k0_pay1 (F := Ideal) P0 P1 (ix2 r k) = act (∑ j : Fin 512, P0 (ix2 r j) * P1 (ix2 k j)) := by
  rw [← hidden_apply P0 P1 r k]
  rfl

/-! ## Row `c` of the second layer's weights, repeated down the rows -/

theorem w2row0_apply (P2 : FVec Ideal S2x256 .f32) (r : Fin 2000) (k : Fin 256) :
    (broadcastTo S2000x256 (extractStridedSlice S1x256 ![0, 0] P2 Facts₀.slices_S2x256_o0_0_S1x256) Facts₀.broadcasts_S1x256_S2000x256) (ix2 r k)
      = P2 (ix2 0 k) := by
  refine (broadcastTo_apply _ _ (ix2 r k) (ix2 0 k) (fun a => by
    match a with
    | ⟨0, _⟩ => rfl
    | ⟨1, _⟩ => rfl)).trans ?_
  exact extractStridedSlice_apply _ _ _ (ix2 0 k) (ix2 0 k) (fun a => by
    match a with
    | ⟨0, _⟩ => rfl
    | ⟨1, _⟩ => show k.val = 0 + k.val; omega)

theorem w2row1_apply (P2 : FVec Ideal S2x256 .f32) (r : Fin 2000) (k : Fin 256) :
    (broadcastTo S2000x256 (extractStridedSlice S1x256 ![1, 0] P2 Facts₀.slices_S2x256_o1_0_S1x256) Facts₀.broadcasts_S1x256_S2000x256) (ix2 r k)
      = P2 (ix2 1 k) := by
  refine (broadcastTo_apply _ _ (ix2 r k) (ix2 0 k) (fun a => by
    match a with
    | ⟨0, _⟩ => rfl
    | ⟨1, _⟩ => rfl)).trans ?_
  exact extractStridedSlice_apply _ _ _ (ix2 0 k) (ix2 1 k) (fun a => by
    match a with
    | ⟨0, _⟩ => rfl
    | ⟨1, _⟩ => show k.val = 0 + k.val; omega)

/-! ## The sum over the hidden axis -/

/-- A sum over the second axis of a 2000 × 256 vector, read at row `r`. -/
theorem lane_sum (v : FVec Ideal S2000x256 .f32) (r : Fin 2000) :
    (multiReduction .add [1] S2000 v 0x00000000#32 Facts₀.reduces_S2000x256_S2000 (.inl rfl) rfl) (ix1 r)
      = ∑ k : Fin 256, v (ix2 r k) := by
  refine (Ideal.multiReduction_add_single v 0x00000000#32 Facts₀.reduces_S2000x256_S2000 (.inl rfl) rfl (ix1 r)).trans ?_
  refine Finset.sum_congr rfl fun k _ => ?_
  exact congrArg v (funext fun a => Fin.ext (by
    match a with
    | ⟨0, _⟩ => rfl
    | ⟨1, _⟩ => rfl))

/-! ## The block -/

/-- Entry `(r, c)` of the block the body leaves. -/
theorem block_entry (P0 : FVec Ideal S2000x512 .f32) (P1 : FVec Ideal S256x512 .bf16) (P2 : FVec Ideal S2x256 .f32)
    (r : Fin 2000) (c : Fin 2) :
    Cert.KernelIdeal.Value.E3 (F := Ideal) P0 P1 P2 (ix2 r c) = entry (fun j => P0 (ix2 r j)) P1 (fun k => P2 (ix2 c k)) := by
  unfold entry
  have hix : Cert.KernelIdeal.Value.ix3_0 (ix2 r c) = ix1 r :=
    funext fun a => Fin.ext (by match a with | ⟨0, _⟩ => rfl)
  show (Cert.KernelIdeal.Value.Fam3_0 (F := Ideal) P0 P1 P2 (Cert.KernelIdeal.Value.sel3 (ix2 r c)))
      (Cert.KernelIdeal.Value.ix3_0 (ix2 r c)) = _
  rw [hix]
  match c with
  | ⟨0, _⟩ =>
    have hs : Cert.KernelIdeal.Value.sel3 (ix2 r (⟨0, by decide⟩ : Fin 2)) = ⟨0, by decide⟩ := Fin.ext rfl
    rw [hs]
    show (multiReduction .add [1] S2000 (mulf (k0_pay1 (F := Ideal) P0 P1) (broadcastTo S2000x256 (extractStridedSlice S1x256 ![0, 0] P2 Facts₀.slices_S2x256_o0_0_S1x256) Facts₀.broadcasts_S1x256_S2000x256)) 0x00000000#32 Facts₀.reduces_S2000x256_S2000 (.inl rfl) rfl) (ix1 r) = _
    rw [lane_sum]
    refine Finset.sum_congr rfl fun k _ => ?_
    rw [mulf_apply, rectified_apply, w2row0_apply]
    rfl
  | ⟨1, _⟩ =>
    have hs : Cert.KernelIdeal.Value.sel3 (ix2 r (⟨1, by decide⟩ : Fin 2)) = ⟨1, by decide⟩ := Fin.ext rfl
    rw [hs]
    show (multiReduction .add [1] S2000 (mulf (k0_pay1 (F := Ideal) P0 P1) (broadcastTo S2000x256 (extractStridedSlice S1x256 ![1, 0] P2 Facts₀.slices_S2x256_o1_0_S1x256) Facts₀.broadcasts_S1x256_S2000x256)) 0x00000000#32 Facts₀.reduces_S2000x256_S2000 (.inl rfl) rfl) (ix1 r) = _
    rw [lane_sum]
    refine Finset.sum_congr rfl fun k _ => ?_
    rw [mulf_apply, rectified_apply, w2row1_apply]
    rfl

/-! ## What the body leaves, at an index -/

theorem zero_offsets : (![0, 0] : Fin 2 → Nat) = fun _ => 0 := funext fun a => by fin_cases a <;> rfl

/-- The body's result for the output window, from whole blocks `x0`, `x1`, `x2` of its three inputs: its two
    column stores together leave, at `(r, c)`, the specification's entry of row `r` of `x0` and row `c` of `x2`. -/
theorem out_apply (x0 : Vec Ideal S2000x512 .f32) (x1 : Vec Ideal S256x512 .bf16) (x2 : Vec Ideal S2x256 .f32)
    (r : Fin 2000) (c : Fin 2) :
    out0_3 (F := Ideal) x0 x1 x2 (ix2 r c) = entry (fun j => x0 (ix2 r j)) x1 (fun k => x2 (ix2 c k)) := by
  unfold out0_3
  simp only [View.ld_unit_zero (S := S2000x512) zero_offsets, View.ld_unit_zero (S := S256x512) zero_offsets,
    View.ld_unit_zero (S := S2x256) zero_offsets]
  rw [Cert.KernelIdeal.Value.canon3_eq]
  exact block_entry x0 x1 x2 r c

/-- `entry` of equal rows and weights. -/
theorem entry_congr {xr xr' : Fin 512 → EReal} {w1 w1' : (⟨2, ![256, 512]⟩ : Shape).Idx → EReal} {wr wr' : Fin 256 → EReal}
    (h0 : xr = xr') (h1 : w1 = w1') (h2 : wr = wr') : entry xr w1 wr = entry xr' w1' wr' := by
  subst h0 h1 h2; rfl

end Cert.LeakyMlp.Kernel

end
-- ==== Proof.KernelArray.lean ====
/-
  From blocks to the whole array: the kernel's result is the specification `logits` of its arguments.

  The grid has 50 points. Point `t` reads rows `2000·t … 2000·t + 1999` of the activations and all of both weight
  arrays, and writes rows `2000·t … 2000·t + 1999` (both columns) of the result. So what point `t` writes back is
  block `t` of `logits` (row `r` of the block is row `2000·t + r` of the array on both sides), and since
  50 · 2000 = 100000 the blocks cover the result: row `i` lies in block `i / 2000`.
  The first layer's weights reach the region through a change of float format made before it, which is the
  identity on the extended reals.
-/
import proofs.«115512_g39908836114553_cont_8to1_b_374_6_alg».proof.Proof.Gen.KernelIdeal.Value
import proofs.«115512_g39908836114553_cont_8to1_b_374_6_alg».proof.Proof.KernelBlock
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.LeakyMlp.Kernel

open Idealize.ShloMosaic.ValueIdx Cert.KernelIdeal Cert.KernelIdeal.Gen Cert.KernelIdeal.Value Cert.LeakyMlp

variable (m : (ℓ : Loc nD τ sig) → Buf (Elt Ideal) ℓ) (ρ : Dev nD → PrngReg)

/-- The printed index maps over the grid: the activations' and the result's blocks move with the point along the
    rows, the weights' blocks stay at the origin. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first layer's weights as the region finds them are the argument's: the one operation before the region only
    changes their float format. -/
theorem weights1_at_entry (c : Dev nD) :
    (V m c main_call0_v0 : S256x512.Idx → EReal) = (m ((c : Thread nD τ).loc main_arg1) : S256x512.Idx → EReal) := by
  dsimp only [Gen.V, Gen.hostOps0]
  after_results
  rfl

/-- The specification of the arrays as the region finds them. -/
abbrev atEntry (c : Dev nD) : S100000x2.Idx → EReal :=
  logits (V m c main_arg0) (V m c main_call0_v0) (V m c main_arg2)

/-- … which is the specification of the arguments. -/
theorem atEntry_eq (c : Dev nD) :
    atEntry m c = logits (m ((c : Thread nD τ).loc main_arg0)) (m ((c : Thread nD τ).loc main_arg1)) (m ((c : Thread nD τ).loc main_arg2)) := by
  unfold atEntry
  rw [V_main_arg0, V_main_arg2, weights1_at_entry]

/-- What point `t` writes back is block `t` of the specification. -/
theorem flushed_eq (c : Dev nD) (t : Fin cfg0.N) :
    (dats m 0 c).flushed 3 t = ((cfg0.win 3).blk t).view.read (Elt Ideal) (atEntry m c) := by
  rw [Cert.KernelIdeal.Value.flushed3]
  obtain ⟨e00, e01, e10, e11, e20, e21, e30, e31⟩ := index_maps t
  refine funext fun (y : S2000x2.Idx) => ?_
  obtain ⟨r, q, rfl⟩ : ∃ (r : Fin 2000) (q : Fin 2), y = ix2 r q := ⟨y 0, y 1, eq_ix2 y⟩
  show out0_3 (F := Ideal) (iblk m c 0 t) (iblk m c 1 t) (iblk m c 2 t) (ix2 r q)
    = atEntry m c (((cfg0.win 3).blk t).view.emb (ix2 r q))
  rw [out_apply]
  refine entry_congr (funext fun j => ?_) (funext fun z => ?_) (funext fun k => ?_)
  · show V m c main_arg0 (((cfg0.win 0).blk t).view.emb (ix2 r j))
      = V m c main_arg0 (ix2 ((((cfg0.win 3).blk t).view.emb (ix2 r q)) 0) j)
    have e : ((cfg0.win 0).blk t).view.emb (ix2 r j) = ix2 ((((cfg0.win 3).blk t).view.emb (ix2 r q)) 0) j := by
      funext a; apply Fin.ext
      match a with
      | ⟨0, _⟩ => show win0_0.index t (0 : Fin 2) * 2000 + 1 * r.val = win0_3.index t (0 : Fin 2) * 2000 + 1 * r.val; omega
      | ⟨1, _⟩ => show win0_0.index t (1 : Fin 2) * 512 + 1 * j.val = j.val; omega
    rw [e]
    rfl
  · show V m c main_call0_v0 (((cfg0.win 1).blk t).view.emb z) = V m c main_call0_v0 z
    have e : ((cfg0.win 1).blk t).view.emb z = z := by
      funext a; apply Fin.ext
      match a with
      | ⟨0, _⟩ => show win0_1.index t (0 : Fin 2) * 256 + 1 * (z 0).val = (z 0).val; omega
      | ⟨1, _⟩ => show win0_1.index t (1 : Fin 2) * 512 + 1 * (z 1).val = (z 1).val; omega
    rw [e]
  · show V m c main_arg2 (((cfg0.win 2).blk t).view.emb (ix2 q k))
      = V m c main_arg2 (ix2 ((((cfg0.win 3).blk t).view.emb (ix2 r q)) 1) k)
    have e : ((cfg0.win 2).blk t).view.emb (ix2 q k) = ix2 ((((cfg0.win 3).blk t).view.emb (ix2 r q)) 1) k := by
      funext a; apply Fin.ext
      match a with
      | ⟨0, _⟩ => show win0_2.index t (0 : Fin 2) * 2 + 1 * q.val = win0_3.index t (1 : Fin 2) * 2 + 1 * q.val; omega
      | ⟨1, _⟩ => show win0_2.index t (1 : Fin 2) * 256 + 1 * k.val = k.val; omega
    rw [e]
    rfl

/-- An index of the result is in point `t`'s block iff each coordinate is in the block's range on its axis. -/
theorem mem_block (t : Fin cfg0.N) (i : S100000x2.Idx) :
    i ∈ ((cfg0.win 3).blk t).view.set ↔ ∀ a : Fin 2, win0_3.index t a * S2000x2.size a ≤ (i a).val
      ∧ (i a).val < win0_3.index t a * S2000x2.size a + S2000x2.size a := by
  show i ∈ ((View.whole main_v0).slice (win0_3.rect t)).set ↔ _
  rw [View.set_slice_whole, Rect.mem_set_unit]
  exact Iff.rfl

/-- Every index of the result is in some point's block: row `i` in block `i / 2000`. -/
theorem covered (i : S100000x2.Idx) :
    ∃ t : Fin cfg0.N, (cfg0.win 3).flush t = true ∧ i ∈ ((cfg0.win 3).blk t).view.set := by
  have hi0 : (i 0).val < 100000 := (i 0).isLt
  have hi1 : (i 1).val < 2 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, e30, e31⟩ := index_maps t
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 2 ≤ (i 1).val ∧ (i 1).val < win0_3.index t (1 : Fin 2) * 2 + 2
    omega

/-- The result array after the run is the specification of the arguments. -/
theorem final (c : Dev nD) :
    (dats m 0 c).arrAt 3 cfg0.N
      = logits (m ((c : Thread nD τ).loc main_arg0)) (m ((c : Thread nD τ).loc main_arg1)) (m ((c : Thread nD τ).loc main_arg2)) :=
  ((dats m 0 c).arrAt_eq_of_cover 3 (atEntry m c) (fun t _ => flushed_eq m c t) covered).trans (atEntry_eq m c)

/-- The kernel's run, read: the result at the specification of the arguments, the arguments unchanged. -/
theorem run : θ_run defs (onTc (τ := τ) (main (F := Ideal))) ⟨m, fun _ => 0, ρ⟩ fun r => ∀ c : Dev nD,
      r.2.mem ((c : Thread nD τ).loc main_v0)
        = logits (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.LeakyMlp.Kernel

end
-- ==== Proof.lean ====
/-
  A two-layer perceptron's logits, computed two ways, agree on the extended reals.

  With `x` the 100000 × 512 activations, `W1` the 256 × 512 and `W2` the 2 × 256 weights, both programs compute
      out[r, c] = ∑ k, act (∑ j, x[r, j] · W1[k, j]) · W2[c, k].
  The kernel walks the rows in 50 blocks of 2000; per block it forms the hidden values by one matrix product
  (both operands contracted on their second axis, into a zero accumulator), rectifies them as `max h (s · h)`, and
  for each of the two classes multiplies by the class's row of `W2` and sums along the hidden axis. The reference
  transposes `W1` and `W2`, forms the two products whole, and rectifies as `if 0 ≤ h then h else s · h`. The slope
  `s` is the same f32 word on both sides, a real in `[0, 1]`, for which the two spellings of the rectifier are one
  function on the whole extended line (Proof/LeakySpec.lean); the rest is reading both results entry by entry
  as the same sums (Proof/RefIsSpec.lean for the reference; Proof/KernelBlock.lean and Proof/KernelArray.lean for
  the kernel: one block at an index, then the blocks tiling the array). Changes of float format are the identity
  on the extended reals. Finiteness of the inputs is not used.

  The three frame claims are the generated frame runs; the idealisation rewrote nothing, so `preserves` is `True`.
-/
import proofs.«115512_g39908836114553_cont_8to1_b_374_6_alg».proof.Defs
import proofs.«115512_g39908836114553_cont_8to1_b_374_6_alg».proof.Proof.Gen.Kernel
import proofs.«115512_g39908836114553_cont_8to1_b_374_6_alg».proof.Proof.Gen.Kernel.Skeleton
import proofs.«115512_g39908836114553_cont_8to1_b_374_6_alg».proof.Proof.Gen.Kernel.Launch
import proofs.«115512_g39908836114553_cont_8to1_b_374_6_alg».proof.Proof.Gen.Kernel.Points
import proofs.«115512_g39908836114553_cont_8to1_b_374_6_alg».proof.Proof.Gen.Kernel.Frame
import proofs.«115512_g39908836114553_cont_8to1_b_374_6_alg».proof.Proof.Gen.KernelIdeal
import proofs.«115512_g39908836114553_cont_8to1_b_374_6_alg».proof.Proof.Gen.KernelIdeal.Skeleton
import proofs.«115512_g39908836114553_cont_8to1_b_374_6_alg».proof.Proof.Gen.KernelIdeal.Launch
import proofs.«115512_g39908836114553_cont_8to1_b_374_6_alg».proof.Proof.Gen.KernelIdeal.Points
import proofs.«115512_g39908836114553_cont_8to1_b_374_6_alg».proof.Proof.Gen.KernelIdeal.Frame
import proofs.«115512_g39908836114553_cont_8to1_b_374_6_alg».proof.Proof.Gen.ReferenceIdeal
import proofs.«115512_g39908836114553_cont_8to1_b_374_6_alg».proof.Proof.Gen.Pre_finite_inputs
import proofs.«115512_g39908836114553_cont_8to1_b_374_6_alg».proof.Proof.Gen.KernelIdeal.Value
import proofs.«115512_g39908836114553_cont_8to1_b_374_6_alg».proof.Proof.Gen.ReferenceIdeal.Run
import proofs.«115512_g39908836114553_cont_8to1_b_374_6_alg».proof.Proof.Gen.ReferenceIdeal.Read
import proofs.«115512_g39908836114553_cont_8to1_b_374_6_alg».proof.Proof.LeakySpec
import proofs.«115512_g39908836114553_cont_8to1_b_374_6_alg».proof.Proof.RefIsSpec
import proofs.«115512_g39908836114553_cont_8to1_b_374_6_alg».proof.Proof.KernelBlock
import proofs.«115512_g39908836114553_cont_8to1_b_374_6_alg».proof.Proof.KernelArray
import Idealize.ShloMosaic.Adequacy
import Idealize.ShloMosaic.Init

noncomputable section

namespace Cert.Proof

open Idealize.ShloMosaic Idealize.ShloMosaic.TcCoe Idealize.SL.Sem Cert.Kernel

/-- The word-level kernel runs to completion without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on `x`, `W1`, `W2`, both programs end with the result array at `logits x W1 W2`. -/
theorem algebraic : Cert.algebraic_KernelIdeal_ReferenceIdeal := by
  intro m ρ m' ρ' _ hagree
  refine ⟨_, Cert.LeakyMlp.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.LeakyMlp.Ref.stage_eq_logits, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
